-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x128 .f32) (main_arg1 : FVec F S100000x1 .f32) (main_arg2 : FVec F S100000x1 .f32) (main_arg3 : IVec S640000 32) (main_arg4 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x128 : Shape := ⟨2, ![100000, 128]⟩
abbrev S100000x1 : Shape := ⟨2, ![100000, 1]⟩
abbrev S640000 : Shape := ⟨1, ![640000]⟩
abbrev S5000x128 : Shape := ⟨2, ![5000, 128]⟩
abbrev S5000x1 : Shape := ⟨2, ![5000, 1]⟩
abbrev S_ : Shape := ⟨0, ![]⟩
abbrev S640000x1 : Shape := ⟨2, ![640000, 1]⟩
abbrev S640000x128 : Shape := ⟨2, ![640000, 128]⟩

abbrev nBuf : Space → Nat
  | .hbm => 20
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S100000x1, .f32⟩
  | .hbm, ⟨3, _⟩ => ⟨S640000, .i32⟩
  | .hbm, ⟨4, _⟩ => ⟨S640000, .i32⟩
  | .hbm, ⟨5, _⟩ => ⟨S100000x128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S5000x128_S5000x128 : S5000x128.ShapeCasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S100000x1, .f32⟩
  | .hbm, ⟨3, _⟩ => ⟨S640000, .i32⟩
  | .hbm, ⟨4, _⟩ => ⟨S640000, .i32⟩
  | .hbm, ⟨5, _⟩ => ⟨S100000x128, .f32⟩
  | .hbm, ⟨6, _⟩ => ⟨S100000x128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S100000x128, .f32⟩
  | .hbm, ⟨18, _⟩ => ⟨S640000x1, .i32⟩
  | .hbm, ⟨19, _⟩ => ⟨S100000x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Scale.lean ====
/-
  Scaling the rows of a matrix by a column: entry (p, q) of the result is x (p, q) · c (p, 0).
  Both programs compute it twice — the idealized kernel block by block (a [5000, 1] block of the column repeated along
  the lanes and multiplied into a [5000, 128] block of the matrix), the reference on whole arrays (the column
  broadcast to [100000, 128] and multiplied) — and this module states the one function both are, over any float
  values: nothing here uses more of the arithmetic than that the product is taken entry by entry.
-/
import Idealize.ShloMosaic.PureOps
import Idealize.ShloMosaic.Lib.Pipeline.Value
import Idealize.ShloMosaic.Lib.ValueIdx

noncomputable section

namespace Cert.RowScale

open Idealize.ShloMosaic

variable {F : FTy → Type} [FloatOps F]

/-- The entry of an [a, 1] column that scales entry `i` of an [a, b] matrix: the same row, position 0. -/
abbrev rowOf {a b : Nat} (i : (⟨2, ![a, b]⟩ : Shape).Idx) : (⟨2, ![a, 1]⟩ : Shape).Idx := fun d => match d with
  | ⟨0, _⟩ => ⟨(i 0).val, (i 0).isLt⟩
  | ⟨1, _⟩ => ⟨0, Nat.one_pos⟩

/-- The matrix `x` with row `p` multiplied by `c (p, 0)`. -/
def scaleRows {a b : Nat} (x : (⟨2, ![a, b]⟩ : Shape).Idx → Elt F .f32) (c : (⟨2, ![a, 1]⟩ : Shape).Idx → Elt F .f32) :
    (⟨2, ![a, b]⟩ : Shape).Idx → Elt F .f32 :=
  fun i => FloatOps.mulf (x i) (c (rowOf i))

theorem scaleRows_apply {a b : Nat} (x : (⟨2, ![a, b]⟩ : Shape).Idx → Elt F .f32) (c : (⟨2, ![a, 1]⟩ : Shape).Idx → Elt F .f32)
    (i : (⟨2, ![a, b]⟩ : Shape).Idx) : scaleRows x c i = FloatOps.mulf (x i) (c (rowOf i)) := rfl

/-- A [5000, 1] block of the column repeated along the 128 lanes reads, at (p, q), the block's entry (p, 0). -/
theorem repeat_lanes_apply (x1 : (⟨2, ![5000, 1]⟩ : Shape).Idx → Elt F .f32)
    (h : (⟨2, ![5000, 1]⟩ : Shape).Broadcasts ⟨2, ![5000, 128]⟩) (j : (⟨2, ![5000, 128]⟩ : Shape).Idx) :
    broadcastTo ⟨2, ![5000, 128]⟩ x1 h j = x1 (rowOf j) :=
  broadcastTo_apply x1 h j (rowOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The block form: a matrix block times the repeated column block is the block's rows scaled. -/
theorem mulf_repeat_lanes (x0 : (⟨2, ![5000, 128]⟩ : Shape).Idx → Elt F .f32) (x1 : (⟨2, ![5000, 1]⟩ : Shape).Idx → Elt F .f32)
    (h : (⟨2, ![5000, 1]⟩ : Shape).Broadcasts ⟨2, ![5000, 128]⟩) :
    mulf (φ := .f32) x0 (broadcastTo ⟨2, ![5000, 128]⟩ x1 h) = scaleRows x0 x1 := by
  funext j
  show FloatOps.mulf (x0 j) (broadcastTo ⟨2, ![5000, 128]⟩ x1 h j) = _
  rw [repeat_lanes_apply, scaleRows_apply]

/-- The whole-array form: the column broadcast along both axes to [100000, 128] reads, at (p, q), its entry (p, 0). -/
theorem bcast_rows_apply (c : (⟨2, ![100000, 1]⟩ : Shape).Idx → Elt F .f32)
    (h : (⟨2, ![100000, 1]⟩ : Shape).BroadcastsInDim ⟨2, ![100000, 128]⟩ (![0, 1] : Fin 2 → Fin 2))
    (i : (⟨2, ![100000, 128]⟩ : Shape).Idx) :
    broadcastInDim ⟨2, ![100000, 128]⟩ ![0, 1] h c i = c (rowOf i) :=
  broadcastInDim_apply _ h c i (rowOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A matrix times the broadcast column is the matrix's rows scaled. -/
theorem mulf_bcast_rows (x : (⟨2, ![100000, 128]⟩ : Shape).Idx → Elt F .f32) (c : (⟨2, ![100000, 1]⟩ : Shape).Idx → Elt F .f32)
    (h : (⟨2, ![100000, 1]⟩ : Shape).BroadcastsInDim ⟨2, ![100000, 128]⟩ (![0, 1] : Fin 2 → Fin 2)) :
    mulf (φ := .f32) x (broadcastInDim ⟨2, ![100000, 128]⟩ ![0, 1] h c) = scaleRows x c := by
  funext i
  show FloatOps.mulf (x i) (broadcastInDim ⟨2, ![100000, 128]⟩ ![0, 1] h c i) = _
  rw [bcast_rows_apply, scaleRows_apply]

end Cert.RowScale

end
-- ==== Proof.Region0.lean ====
/-
  Region 0 of the idealized kernel, as one whole-array function. The region walks the [100000, 128] matrix in 20 blocks
  of 5000 rows; at point t it loads rows 5000·t … 5000·t + 4999 of the matrix and of the [100000, 1] column, multiplies
  each row of the block by its column entry, and writes the block back to the same rows of the output. So the block a
  point writes back is that point's block of ONE function of the two arrays as the region finds them — the matrix with
  its rows scaled by the column —, the 20 blocks tile the output, and after the region the output array is that function.
  Stated for any contents `V` of the buffers at the region's entry and any float values.
-/
import proofs.«146750_j3959959847142_1_alg».proof.Proof.Gen.KernelIdeal.Frame
import proofs.«146750_j3959959847142_1_alg».proof.Proof.Scale
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.RowScale

variable {F : FTy → Type} [FloatOps F]
variable (V : (c : Dev nD) → (b : Ref sig .tc) → Buf (Elt F) ((c : Thread nD τ).loc b))

/-- The body's loads and its store start at row 0, lane 0 of the staging buffers. -/
theorem origin : (![0, 0] : Fin 2 → Nat) = fun _ => 0 := funext fun a => by fin_cases a <;> rfl

/-- What the body stores is its matrix block with each row scaled by the column block's entry of that row. -/
theorem stored_eq (x0 : Vec F S5000x128 .f32) (x1 : Vec F S5000x1 .f32) : k0_pay1 x0 x1 = scaleRows x0 x1 :=
  mulf_repeat_lanes x0 x1 broadcasts_S5000x1_S5000x128

/-- The three index maps over the 20 points: the matrix block, the column block and the output block are all at block row
    t, and at block column 0. -/
theorem block_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) ≤ 19 :=
  (by decide +kernel : ∀ t : Fin grid0.N, _)

/-- Every one of the 20 block rows is some point's. -/
theorem block_row_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the matrix (as the region finds it) with its rows scaled by the column. -/
theorem flushed_eq (c : Dev nD) (t : Fin cfg0.N) :
    (dat0 V c).flushed 2 t = ((cfg0.win 2).blk t).view.read (Elt F) (scaleRows (V c main_arg0) (V c main_arg1)) := by
  show (cfg0.win 2).cut (grid0.coords t) ((dat0 V c).after 2 t) = _
  rw [after0_2]
  unfold out0_2
  rw [View.canon_unit_zero origin]
  simp only [View.ld_unit_zero (S := S5000x128) origin, View.ld_unit_zero (S := S5000x1) origin]
  rw [stored_eq]
  obtain ⟨e0, e1, e2, e3, e4, e5⟩ := block_rows t
  funext j
  show FloatOps.mulf (V c main_arg0 (((cfg0.win 0).blk t).view.emb j)) (V c main_arg1 (((cfg0.win 1).blk t).view.emb (rowOf (a := 5000) (b := 128) j)))
    = FloatOps.mulf (V c main_arg0 (((cfg0.win 2).blk t).view.emb j)) (V c main_arg1 (rowOf (a := 100000) (b := 128) (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (rowOf (a := 5000) (b := 128) j) = rowOf (a := 100000) (b := 128) (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the output lies in the block of the point at block row r / 5000: the 20 blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_row_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the matrix, as the region found it, with its rows scaled by the column. -/
theorem output_eq (c : Dev nD) : (dat0 V c).arrAt 2 cfg0.N = scaleRows (V c main_arg0) (V c main_arg1) :=
  (dat0 V c).arrAt_eq_of_cover 2 _ (fun t _ => flushed_eq V c t) covered

end Cert.KernelIdeal.Region0

end
-- ==== Proof.Region1.lean ====
/-
  Region 1 of the idealized kernel, as one whole-array function. The region walks the [100000, 128] matrix in 20 blocks
  of 5000 rows; at point t it loads rows 5000·t … 5000·t + 4999 of the matrix and of the [100000, 1] column, multiplies
  each row of the block by its column entry, and writes the block back to the same rows of the output. So the block a
  point writes back is that point's block of ONE function of the two arrays as the region finds them — the matrix with
  its rows scaled by the column —, the 20 blocks tile the output, and after the region the output array is that function.
  Stated for any contents `V` of the buffers at the region's entry and any float values.
-/
import proofs.«146750_j3959959847142_1_alg».proof.Proof.Gen.KernelIdeal.Frame
import proofs.«146750_j3959959847142_1_alg».proof.Proof.Scale
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.RowScale

variable {F : FTy → Type} [FloatOps F]
variable (V : (c : Dev nD) → (b : Ref sig .tc) → Buf (Elt F) ((c : Thread nD τ).loc b))

/-- The body's loads and its store start at row 0, lane 0 of the staging buffers. -/
theorem origin : (![0, 0] : Fin 2 → Nat) = fun _ => 0 := funext fun a => by fin_cases a <;> rfl

/-- What the body stores is its matrix block with each row scaled by the column block's entry of that row (the body's
    shape cast of the matrix block to its own shape changes nothing). -/
theorem stored_eq (x0 : Vec F S5000x128 .f32) (x1 : Vec F S5000x1 .f32) : k1_pay1 x0 x1 = scaleRows x0 x1 :=
  by
    unfold k1_pay1
    rw [shapeCast_self]
    exact mulf_repeat_lanes x0 x1 broadcasts_S5000x1_S5000x128

/-- The three index maps over the 20 points: the matrix block, the column block and the output block are all at block row
    t, and at block column 0. -/
theorem block_rows : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (1 : Fin 2) = 0
    ∧ win1_2.index t (0 : Fin 2) ≤ 19 :=
  (by decide +kernel : ∀ t : Fin grid1.N, _)

/-- Every one of the 20 block rows is some point's. -/
theorem block_row_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the matrix (as the region finds it) with its rows scaled by the column. -/
theorem flushed_eq (c : Dev nD) (t : Fin cfg1.N) :
    (dat1 V c).flushed 2 t = ((cfg1.win 2).blk t).view.read (Elt F) (scaleRows (V c main_v10) (V c main_arg2)) := by
  show (cfg1.win 2).cut (grid1.coords t) ((dat1 V c).after 2 t) = _
  rw [after1_2]
  unfold out1_2
  rw [View.canon_unit_zero origin]
  simp only [View.ld_unit_zero (S := S5000x128) origin, View.ld_unit_zero (S := S5000x1) origin]
  rw [stored_eq]
  obtain ⟨e0, e1, e2, e3, e4, e5⟩ := block_rows t
  funext j
  show FloatOps.mulf (V c main_v10 (((cfg1.win 0).blk t).view.emb j)) (V c main_arg2 (((cfg1.win 1).blk t).view.emb (rowOf (a := 5000) (b := 128) j)))
    = FloatOps.mulf (V c main_v10 (((cfg1.win 2).blk t).view.emb j)) (V c main_arg2 (rowOf (a := 100000) (b := 128) (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (rowOf (a := 5000) (b := 128) j) = rowOf (a := 100000) (b := 128) (((cfg1.win 2).blk t).view.emb j) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v11).slice (win1_2.rect t)).set ↔ _
  rw [View.set_slice_whole, Rect.mem_set_unit]
  exact Iff.rfl

/-- Row r of the output lies in the block of the point at block row r / 5000: the 20 blocks tile the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_row_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the matrix, as the region found it, with its rows scaled by the column. -/
theorem output_eq (c : Dev nD) : (dat1 V c).arrAt 2 cfg1.N = scaleRows (V c main_v10) (V c main_arg2) :=
  (dat1 V c).arrAt_eq_of_cover 2 _ (fun t _ => flushed_eq V c t) covered

end Cert.KernelIdeal.Region1

end
-- ==== Proof.KernelRun.lean ====
/-
  The idealized kernel's run, read at its last boundary. The program is two row-scaling regions with a stretch of
  host operations between them; its run passes through four boundaries — the launch memory, the first region's exit,
  the host stretch's end, the second region's exit — and at the last one every buffer the thread holds is at the
  contents the second region leaves. So whatever those contents say of a buffer holds of the final memory: the result
  buffer is the second region's output array, which then holds what that region's write-backs, folded over the grid's 20
  points, leave in it; the five arguments are as launched.
-/
import proofs.«146750_j3959959847142_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every buffer that
    outlives the regions holds the last boundary's contents: the launch over the program's three segments (region, host
    stretch, region), the last thread state read against the final state. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run with the result array NAMED: the result buffer is the second region's output array, so it ends at what
    that region's write-backs leave in it; each argument's buffer is read back through the boundaries to the launch
    memory. -/
theorem run_named : θ_run defs (onTc (τ := τ) (main (F := F))) ⟨m, fun _ => 0, ρ⟩ (fun r => ∀ c : Dev nD,
      r.2.mem ((c.tc : Thread nD τ).loc main_v11) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v11 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)
    (run_boundary m ρ)

end Cert.KernelIdeal.Named

end
-- ==== Proof.KernelValue.lean ====
/-
  The idealized kernel's result as one function of its arguments. The first region leaves the matrix `feat` with its rows
  scaled by the column `cj`; the host stretch between the regions turns that array, with the two index vectors, into the
  aggregated array (negative source indices wrapped by 100000, the scaled rows gathered at the source indices, and the
  gathered rows added into a zero array at the destination indices) — carried here as ONE function `between`, never opened —;
  the second region scales the rows of what it finds by the column `ci`. Reading the run's boundaries in order gives the
  result buffer as `scaleRows (between (scaleRows feat cj) src dst) ci`. Nothing here depends on the float values.
-/
import proofs.«146750_j3959959847142_1_alg».proof.Proof.Region0
import proofs.«146750_j3959959847142_1_alg».proof.Proof.Region1
import proofs.«146750_j3959959847142_1_alg».proof.Proof.KernelRun
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo
open Cert.RowScale

variable {F : FTy → Type} [FloatOps F]

/-- The host stretch between the two regions, as a function of the array the first region leaves and the two index
    vectors: the operations of the program's text, in its order. -/
def between (h : (⟨S100000x128, .f32⟩ : BufTy).Contents (Elt F)) (src dst : (⟨S640000, .i32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

variable (m : (ℓ : Loc nD τ sig) → Buf (Elt F) ℓ) (ρ : Dev nD → PrngReg)

/-- At the first region's exit its output array is `feat` with its rows scaled by `cj`. -/
theorem exit0_scaled (c : Dev nD) :
    W1 m ρ c (Proc.devRef .tc main_v0)
      = scaleRows (m ((c : Thread nD τ).loc main_arg0)) (m ((c : Thread nD τ).loc main_arg1)) :=
  (W1_arr m ρ c 2).trans (Region0.output_eq (V0 m ρ) c)

/-- The first region touches neither index vector nor the second column. -/
theorem exit0_src (c : Dev nD) : W1 m ρ c (Proc.devRef .tc main_arg3) = m ((c : Thread nD τ).loc main_arg3) :=
  W1_of_ne m ρ c main_arg3 (by decide)
theorem exit0_dst (c : Dev nD) : W1 m ρ c (Proc.devRef .tc main_arg4) = m ((c : Thread nD τ).loc main_arg4) :=
  W1_of_ne m ρ c main_arg4 (by decide)
theorem exit0_ci (c : Dev nD) : W1 m ρ c (Proc.devRef .tc main_arg2) = m ((c : Thread nD τ).loc main_arg2) :=
  W1_of_ne m ρ c main_arg2 (by decide)

/-- What the second region finds in its matrix operand: the host stretch's last result, `between` of the scaled
    matrix and the launch's index vectors. -/
theorem entry1_matrix (c : Dev nD) :
    V2 m ρ c main_v10
      = between (scaleRows (m ((c : Thread nD τ).loc main_arg0)) (m ((c : Thread nD τ).loc main_arg1)))
          (m ((c : Thread nD τ).loc main_arg3)) (m ((c : Thread nD τ).loc main_arg4)) := by
  show StableHlo.after hostOps1 (W1 m ρ c) (Proc.devRef .tc main_v10) = _
  after_results
  rw [exit0_scaled, exit0_src, exit0_dst]
  rfl

/-- What it finds in its column operand: `ci` as launched (no host operation writes it). -/
theorem entry1_column (c : Dev nD) : V2 m ρ c main_arg2 = m ((c : Thread nD τ).loc main_arg2) := by
  show StableHlo.after hostOps1 (W1 m ρ c) (Proc.devRef .tc main_arg2) = _
  after_results
  exact exit0_ci m ρ c

/-- The second region's output array after its write-backs, as a function of the launch memory. -/
theorem result_eq (c : Dev nD) :
    (dat1 (V2 m ρ) c).arrAt 2 cfg1.N
      = scaleRows (between (scaleRows (m ((c : Thread nD τ).loc main_arg0)) (m ((c : Thread nD τ).loc main_arg1)))
          (m ((c : Thread nD τ).loc main_arg3)) (m ((c : Thread nD τ).loc main_arg4))) (m ((c : Thread nD τ).loc main_arg2)) := by
  rw [Region1.output_eq (V2 m ρ) c, entry1_matrix, entry1_column]

/-- The run, read: the result buffer at that function of the arguments, the arguments unchanged. -/
theorem run : θ_run defs (onTc (τ := τ) (main (F := F))) ⟨m, fun _ => 0, ρ⟩ (fun r => ∀ c : Dev nD,
      r.2.mem ((c.tc : Thread nD τ).loc main_v11)
        = scaleRows (between (scaleRows (m ((c : Thread nD τ).loc main_arg0)) (m ((c : Thread nD τ).loc main_arg1)))
            (m ((c : Thread nD τ).loc main_arg3)) (m ((c : Thread nD τ).loc main_arg4))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_named m ρ)

end Cert.KernelIdeal.Named

end
-- ==== Proof.RefValue.lean ====
/-
  The reference's result as the same function of the arguments. Its text is: `feat` times the column `cj` broadcast
  along the rows; the source indices wrapped, the rows gathered, the gathered rows added into a zero array at the
  destination indices; the result times the column `ci` broadcast along the rows. A matrix times a broadcast column is the
  matrix with its rows scaled (`mulf_bcast_rows`), at both ends; what lies between is the host stretch `between`, the
  reference's own copy of the operations the kernel's program runs between its two regions, carried as one function.
-/
import proofs.«146750_j3959959847142_1_alg».proof.Proof.Gen.ReferenceIdeal.Run
import proofs.«146750_j3959959847142_1_alg».proof.Proof.Scale

noncomputable section

namespace Cert.ReferenceIdeal.Named

open Cert.ReferenceIdeal Cert.ReferenceIdeal.Gen
open Idealize.ShloMosaic Idealize.ShloMosaic.TcCoe Idealize.SL.Sem
open Cert.RowScale

variable {F : FTy → Type} [FloatOps F]

/-- The reference's middle stretch, as a function of the scaled matrix and the two index vectors: the operations of its
    text, in its order. -/
def between (h : (⟨S100000x128, .f32⟩ : BufTy).Contents (Elt F)) (src dst : (⟨S640000, .i32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- The term the reference's run ends at is `scaleRows (between (scaleRows feat cj) src dst) ci`. -/
theorem result_eq (x0 : (⟨S100000x128, .f32⟩ : BufTy).Contents (Elt F)) (x1 x2 : (⟨S100000x1, .f32⟩ : BufTy).Contents (Elt F))
    (x3 x4 : (⟨S640000, .i32⟩ : BufTy).Contents (Elt F)) :
    mulf (Host.scatterAdd scatter_S100000x128_S640000x1_S640000x128_1_0_0_1 (broadcastInDim S100000x128 ![] bcast_S_S100000x128 (constant S_ .f32 0x00000000#32)) (broadcastInDim S640000x1 ![0] bcast_S640000_S640000x1_0 (x4)) (Host.gather gather_S100000x128_S640000x1_S640000x128_1_0_n_n_0_1_1128 (mulf (x0) (broadcastInDim S100000x128 ![0, 1] bcast_S100000x1_S100000x128_0_1 (x1))) (broadcastInDim S640000x1 ![0] bcast_S640000_S640000x1_0 (select (cmpi .slt (x3) (broadcastInDim S640000 ![] bcast_S_S640000 (constantI S_ 32 0#32))) (addi (x3) (broadcastInDim S640000 ![] bcast_S_S640000 (constantI S_ 32 100000#32))) (x3))))) (broadcastInDim S100000x128 ![0, 1] bcast_S100000x1_S100000x128_0_1 (x2))
      = scaleRows (between (scaleRows x0 x1) x3 x4) x2 :=
  (mulf_bcast_rows _ x2 bcast_S100000x1_S100000x128_0_1).trans
    (congrArg (fun h => scaleRows (between h x3 x4) x2) (mulf_bcast_rows x0 x1 bcast_S100000x1_S100000x128_0_1))

end Cert.ReferenceIdeal.Named

end
-- ==== Proof.lean ====
/-
  The kernel computes GCMC graph convolution in three steps: a Pallas region scales the rows of `feat` [100000, 128] by the
  column `cj` [100000, 1], 5000 rows per grid point; host operations wrap the negative source indices, gather the scaled
  rows at `src` and add them into a zero array at `dst` (640000 edges); a second region scales the rows of that sum by the
  column `ci`. The reference does the same with whole-array operations: `feat * cj`, the same gather and scatter-add,
  `* ci`. On any float values — in particular on the extended reals — both are

      scaleRows (between (scaleRows feat cj) src dst) ci,

  where `scaleRows x c` at (p, q) is `x (p, q) · c (p, 0)` and `between` is the gather / scatter-add stretch, which the two
  programs spell with the same operations in the same order. No algebraic law joins the two sides: a product with a
  broadcast column and a blockwise product with a repeated column block are the same function entry by entry, so no
  finiteness of the inputs is used. The rewriting of the kernel by the ideal pass is empty, so its soundness claim is
  trivial; the three frames are the generated ones (the reference's from its generated run).
-/
import proofs.«146750_j3959959847142_1_alg».proof.Defs
import proofs.«146750_j3959959847142_1_alg».proof.Proof.Gen.Kernel
import proofs.«146750_j3959959847142_1_alg».proof.Proof.Gen.Kernel.Frame
import proofs.«146750_j3959959847142_1_alg».proof.Proof.Gen.KernelIdeal
import proofs.«146750_j3959959847142_1_alg».proof.Proof.Gen.KernelIdeal.Frame
import proofs.«146750_j3959959847142_1_alg».proof.Proof.Gen.ReferenceIdeal
import proofs.«146750_j3959959847142_1_alg».proof.Proof.Gen.Pre_finite_inputs
import proofs.«146750_j3959959847142_1_alg».proof.Proof.Gen.ReferenceIdeal.Run
import proofs.«146750_j3959959847142_1_alg».proof.Proof.KernelValue
import proofs.«146750_j3959959847142_1_alg».proof.Proof.RefValue
import Idealize.ShloMosaic.Adequacy
import Idealize.ShloMosaic.Init

noncomputable section

namespace Cert.Proof

open Idealize.ShloMosaic Idealize.ShloMosaic.TcCoe Idealize.SL.Sem

/-- The two programs' middle stretches are one function: the same operations on the same shapes, in the same order. -/
theorem between_eq :
    Cert.KernelIdeal.Named.between (F := Ideal) = Cert.ReferenceIdeal.Named.between (F := Ideal) := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result buffer at `scaleRows (between (scaleRows feat cj) src dst) ci` of arguments that agree. -/
theorem algebraic : Cert.algebraic_KernelIdeal_ReferenceIdeal := by
  intro m ρ m' ρ' _ hagree
  refine ⟨_, Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Named.result_eq, between_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
